-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S32768x1024 : Shape := ⟨2, ![32768, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  broadcasts_S2048x1_S2048x1024 : S2048x1.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S_ : Shape := ⟨0, ![]⟩
abbrev S32768 : Shape := ⟨1, ![32768]⟩
abbrev S32768x1 : Shape := ⟨2, ![32768, 1]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S_, .f32⟩
  | .hbm, ⟨3, _⟩ => ⟨S32768, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .i1⟩
  | .hbm, ⟨8, _⟩ => ⟨S_, .f32⟩
  | .hbm, ⟨9, _⟩ => ⟨S32768, .f32⟩
  | .hbm, ⟨10, _⟩ => ⟨S32768, .i1⟩
  | .hbm, ⟨11, _⟩ => ⟨S_, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S_, .f32⟩
  | .hbm, ⟨16, _⟩ => ⟨S32768, .f32⟩
  | .hbm, ⟨17, _⟩ => ⟨S32768, .f32⟩
  | .hbm, ⟨18, _⟩ => ⟨S_, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S32768x1, .f32⟩
  | .hbm, ⟨23, _⟩ => ⟨S32768x1024, .f32⟩
  | .hbm, ⟨24, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1024_0_1 : S32768x1.BroadcastsInDim S32768x1024 (![0, 1] : Fin 2 → Fin S32768x1024.rank)

variable [Facts₀]

class Facts : Prop extends Facts₀ where

variable [Facts]
-- ==== Proof.LibRecip.lean ====
/-
  Multiplying by a reciprocal is dividing, on the extended reals.

  For extended reals `s` and `c` with `c ≠ 0` the quotient `s / c` is by definition `s · c⁻¹` (with `(±∞)⁻¹ = 0`), and the
  reciprocal `1 / c` is `1 · c⁻¹ = c⁻¹`; so `s · (1 / c) = s / c` at every extended real `s`, the infinities included.
  No finiteness is needed, only that the divisor is not zero — which holds of any maximum with one.
-/
import Idealize.ShloMosaic.PureOps.Ideal
import Idealize.ShloMosaic.PureOps.IdealRules

namespace Cert.Lib.Recip

open Idealize.ShloMosaic

/-- The single-precision pattern of 1.0 denotes the real number one. -/
theorem one_f32 : Ideal.ofBits .f32 0x3F800000#32 = 1 := IdealRules.sign_bit.ideal_onePat .f32

/-- The reciprocal of a nonzero extended real is its inverse. -/
theorem div_one_left {c : EReal} (hc : c ≠ 0) : Ideal.div 1 c = c⁻¹ := by
  rw [Ideal.div, if_neg hc, one_mul]

/-- A product with the reciprocal of a nonzero divisor is the quotient by it, at every extended real. -/
theorem mul_div_one (s : EReal) {c : EReal} (hc : c ≠ 0) : s * Ideal.div 1 c = Ideal.div s c := by
  rw [div_one_left hc, Ideal.div, if_neg hc]

/-- A maximum with one is at least one, hence not zero. -/
theorem max_one_ne_zero (x : EReal) : max x 1 ≠ 0 :=
  (lt_of_lt_of_le zero_lt_one (le_max_right x 1)).ne'

end Cert.Lib.Recip
-- ==== Proof.RowScale.lean ====
/-
  Row-wise L2 normalisation on the extended reals: the factor a row is multiplied by.

  A row `x` with squared norm `s = Σ_k x_k²` is sent to `x · ρ(s)`, where `ρ(0) = 0` and `ρ(s) = 1/√s` otherwise
  (so `ρ(+∞) = 0`). Two spellings of `ρ` meet here:
    • the reciprocal square root guarded at zero, `if s = 0 then 0 else rsqrt s`;
    • the guarded reciprocal of the norm `n = √s`, `if n = 0 then 0 else 1 / (if n = 0 then 1 else n)`.
  They agree at every `s ≥ 0`: `√s = 0` exactly when `s = 0`; for a real `s > 0` both are `(√s)⁻¹`; and at `s = +∞`
  both are `0`, because `√(+∞) = +∞` and `(+∞)⁻¹ = 0`. A sum of squares is never negative on the extended reals
  (`(±∞)² = +∞`), so no finiteness of the row is needed.
-/
import Idealize.ShloMosaic.PureOps.Ideal
import Idealize.ShloMosaic.PureOps.Ideal.Laws
import Idealize.ShloMosaic.Lib.ValueIdx
import proofs.«127743_g40415642255439_feedfinal_103_10_alg».proof.Proof.LibRecip

noncomputable section

namespace Cert.RowNormalize

open Idealize.ShloMosaic Idealize.ShloMosaic.ValueIdx

/-- The factor of a row whose squared norm is `s`: zero for the zero row, else the reciprocal of the norm. -/
def scale (s : EReal) : EReal := if s = 0 then 0 else Ideal.rsqrt s

/-- A square is never negative on the extended reals: `(±∞)·(±∞) = +∞`. -/
theorem mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (_root_.mul_self_nonneg r)

/-- The guarded reciprocal square root, as the comparison and selection spell it, is `scale`. -/
theorem select_rsqrt_eq_scale (s : EReal) :
    Scalar.select (Ideal.cmp .oeq s (Ideal.ofBits .f32 0x00000000#32)) (Ideal.ofBits .f32 0x00000000#32) (Ideal.rsqrt s)
      = scale s := by
  rw [Ideal.ofBits_zero_f32]
  unfold scale Scalar.select Ideal.cmp
  by_cases h : s = 0
  · simp [h]
  · simp [h]

/-- The guarded reciprocal of the norm `√s`, as two comparisons, two selections and a quotient spell it, is `scale`
    at every `s ≥ 0`. -/
theorem select_recip_sqrt_eq_scale (s : EReal) (hs : 0 ≤ s) :
    Scalar.select (Ideal.cmp .oeq (Ideal.sqrt s) (Ideal.ofBits .f32 0x00000000#32)) (Ideal.ofBits .f32 0x00000000#32)
        (Ideal.div (Ideal.ofBits .f32 0x3F800000#32)
          (Scalar.select (Ideal.cmp .oeq (Ideal.sqrt s) (Ideal.ofBits .f32 0x00000000#32)) (Ideal.ofBits .f32 0x3F800000#32)
            (Ideal.sqrt s)))
      = scale s := by
  rw [Ideal.ofBits_zero_f32, Cert.Lib.Recip.one_f32]
  unfold scale Scalar.select Ideal.cmp
  induction s using EReal.rec with
  | bot => exact absurd hs (by simp)
  | top =>
    have h1 : Ideal.sqrt ⊤ = ⊤ := rfl
    have h2 : Ideal.rsqrt ⊤ = 0 := rfl
    rw [h1, h2]
    simp [Ideal.div]
  | coe r =>
    have hr : 0 ≤ r := EReal.coe_nonneg.mp hs
    have h1 : Ideal.sqrt (r : EReal) = ((Real.sqrt r : ℝ) : EReal) := by
      show (if r < 0 then (⊥ : EReal) else (Real.sqrt r : EReal)) = _
      rw [if_neg (not_lt.mpr hr)]
    rw [h1]
    by_cases h0 : r = 0
    · subst h0
      simp
    · have hpos : 0 < r := lt_of_le_of_ne hr (Ne.symm h0)
      have hsq : Real.sqrt r ≠ 0 := (Real.sqrt_pos.mpr hpos).ne'
      have hsqE : ((Real.sqrt r : ℝ) : EReal) ≠ 0 := by exact_mod_cast hsq
      have hrE : ((r : ℝ) : EReal) ≠ 0 := by exact_mod_cast h0
      have h2 : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr), if_neg h0]
      rw [h2]
      simp only [hsqE, hrE, decide_false, BitVec.ofBool_false, if_false]
      rw [if_neg (by decide), if_neg (by decide), Cert.Lib.Recip.div_one_left hsqE, EReal.coe_inv]

/-- The squared norm of row `r` of a [32768, 1024] array. -/
def rowSq (X : (⟨2, ![32768, 1024]⟩ : Shape).Idx → EReal) (r : Fin 32768) : EReal :=
  ∑ k : Fin 1024, X (ix2 r k) * X (ix2 r k)

theorem rowSq_nonneg (X : (⟨2, ![32768, 1024]⟩ : Shape).Idx → EReal) (r : Fin 32768) : 0 ≤ rowSq X r :=
  Finset.sum_nonneg fun k _ => mul_self_nonneg (X (ix2 r k))

/-- THE SPECIFICATION: every row multiplied by its factor. -/
def normalized (X : (⟨2, ![32768, 1024]⟩ : Shape).Idx → EReal) : (⟨2, ![32768, 1024]⟩ : Shape).Idx → EReal :=
  fun i => X i * scale (rowSq X (i 0))

end Cert.RowNormalize

end
-- ==== Proof.KernelValue.lean ====
/-
  What the idealized kernel leaves in its result array: every row of the argument multiplied by its factor.

  The grid has 16 points; point `t` stages rows `2048·t … 2048·t + 2047` of the [32768, 1024] argument, all 1024 columns,
  and writes back the same rows of the result. Inside one block the body sums each row's squares over the 1024 columns,
  takes the guarded reciprocal square root of that sum and multiplies the row by it. A row lies in exactly one block and a
  block holds whole rows, so the sum over a block's row IS the sum over the array's row: the block point `t` writes back
  is block `t` of `Cert.RowNormalize.normalized` of the argument, and the sixteen blocks tile the array.
-/
import proofs.«127743_g40415642255439_feedfinal_103_10_alg».proof.Proof.Gen.KernelIdeal.Value
import proofs.«127743_g40415642255439_feedfinal_103_10_alg».proof.Proof.RowScale
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.TcCoe Idealize.SL.Sem
open Idealize.ShloMosaic.ValueIdx Cert.RowNormalize
open Idealize.ShloMosaic.Pipeline (Dat)

/-! ## One block -/

/-- The lane sum of a block's squares at row `r` is the sum over the 1024 columns of that row's squares. -/
theorem blockRowSq (P : FVec Ideal S2048x1024 .f32) (r : Fin 2048) (j : S2048.Idx) (hj : j = ix1 r) :
    multiReduction .add [1] S2048 (mulf P P) 0x00000000#32 reduces_S2048x1024_S2048 (.inl rfl) rfl j
      = ∑ k : Fin 1024, P (ix2 r k) * P (ix2 r k) := by
  subst hj
  refine (Ideal.multiReduction_add_single (mulf P P) 0x00000000#32 reduces_S2048x1024_S2048 (.inl rfl) rfl (ix1 r)).trans ?_
  refine Finset.sum_congr rfl fun k _ => ?_
  have e : reduces_S2048x1024_S2048.lift (ix1 r) k = ix2 r k :=
    funext fun a => Fin.ext (by match a with | ⟨0, _⟩ => rfl | ⟨1, _⟩ => rfl)
  rw [e]
  rfl

/-- What the body leaves at entry (r, q) of a block `P`: the entry times the factor of row `r`'s squared norm within
    the block. -/
theorem block_entry (P : FVec Ideal S2048x1024 .f32) (r : Fin 2048) (q : Fin 1024) :
    Value.E1 (F := Ideal) P (ix2 r q) = P (ix2 r q) * scale (∑ k : Fin 1024, P (ix2 r k) * P (ix2 r k)) := by
  have e0 : Value.ix1_0 (ix2 r q : S2048x1024.Idx) = ix2 r q :=
    funext fun a => Fin.ext (by match a with | ⟨0, _⟩ => rfl | ⟨1, _⟩ => rfl)
  have e1 : Value.ix1_1 (ix2 r q : S2048x1024.Idx) = ix1 r :=
    funext fun a => Fin.ext (by match a with | ⟨0, _⟩ => rfl)
  show P (Value.ix1_0 (ix2 r q)) * Scalar.select (Ideal.cmp .oeq
      (multiReduction .add [1] S2048 (mulf P P) 0x00000000#32 reduces_S2048x1024_S2048 (.inl rfl) rfl (Value.ix1_1 (ix2 r q)))
      (Ideal.ofBits .f32 0x00000000#32)) (Ideal.ofBits .f32 0x00000000#32)
      (Ideal.rsqrt (multiReduction .add [1] S2048 (mulf P P) 0x00000000#32 reduces_S2048x1024_S2048 (.inl rfl) rfl (Value.ix1_1 (ix2 r q)))) = _
  rw [e0, blockRowSq P r _ e1, select_rsqrt_eq_scale]

/-- A block `P` that holds rows `2048·b …` of an array `X`, all columns, is left by the body holding the same rows of the
    normalised array: the row's squared norm is summed over the block's 1024 columns, which are all of the array's. -/
theorem block_normalized (X : S32768x1024.Idx → EReal) (P : FVec Ideal S2048x1024 .f32) (b : Nat)
    (hP : ∀ (x : S2048x1024.Idx) (i : S32768x1024.Idx), (i 0).val = 2048 * b + (x 0).val → (i 1).val = (x 1).val → P x = X i)
    (y : S2048x1024.Idx) (i : S32768x1024.Idx) (hi0 : (i 0).val = 2048 * b + (y 0).val) (hi1 : (i 1).val = (y 1).val) :
    Value.E1 (F := Ideal) P y = normalized X i := by
  obtain ⟨r, q, rfl⟩ : ∃ (r : Fin 2048) (q : Fin 1024), y = ix2 r q := ⟨y 0, y 1, eq_ix2 y⟩
  rw [block_entry, hP (ix2 r q) i hi0 hi1]
  unfold normalized rowSq
  refine congrArg (fun s => X i * scale s) (Finset.sum_congr rfl fun k _ => ?_)
  rw [hP (ix2 r k) (ix2 (i 0) k) hi0 rfl]

/-! ## The blocks in the array -/

variable (m : (ℓ : Loc nD τ sig) → Buf (Elt Ideal) ℓ) (ρ : Dev nD → PrngReg)

theorem offsets_zero : (![0, 0] : Fin 2 → Nat) = fun _ => 0 := funext fun a => by fin_cases a <;> rfl

/-- The two index maps, decided over the sixteen points: both windows sit at block row `t`, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` holds rows `2048·t …` of the argument. -/
theorem input_block (c : Dev nD) (t : Fin cfg0.N) (x : S2048x1024.Idx) (i : S32768x1024.Idx)
    (h0 : (i 0).val = 2048 * t.val + (x 0).val) (h1 : (i 1).val = (x 1).val) :
    (iblk m c 0 t : Vec Ideal S2048x1024 .f32) x = (m ((c : Thread nD τ).loc main_arg0) : S32768x1024.Idx → Elt Ideal .f32) i := by
  obtain ⟨e0, e1, -, -⟩ := block_index t
  unfold iblk
  rw [View.read_apply]
  show V m c main_arg0 _ = m (c.tc.loc main_arg0) _
  unfold V
  congr 1
  funext a
  apply Fin.ext
  match a with
  | ⟨0, _⟩ => show win0_0.index t 0 * 2048 + 1 * (x 0).val = (i 0).val; rw [e0, h0]; omega
  | ⟨1, _⟩ => show win0_0.index t 1 * 1024 + 1 * (x 1).val = (i 1).val; rw [e1, h1]; omega

/-- WHAT POINT `t` WRITES BACK is block `t` of the normalised argument. -/
theorem flushed_eq (c : Dev nD) (t : Fin cfg0.N) :
    (dats m 0 c).flushed 1 t
      = ((cfg0.win 1).blk t).view.read (Elt Ideal) (normalized (m ((c : Thread nD τ).loc main_arg0))) := by
  obtain ⟨-, -, e2, e3⟩ := block_index t
  rw [Value.flushed1]
  unfold out0_1
  simp only [View.ld_unit_zero (S := S2048x1024) offsets_zero]
  funext j
  show View.canon ([⟨r0_0, k0_pay1 (iblk m c 0 t)⟩] : List (View.Piece (Elt Ideal) S2048x1024 .f32)) j
    = normalized (m ((c : Thread nD τ).loc main_arg0)) (((cfg0.win 1).blk t).view.emb j)
  refine (Value.canon1_eq (iblk m c 0 t) j).trans ?_
  refine block_normalized (m ((c : Thread nD τ).loc main_arg0)) (iblk m c 0 t) t.val
    (fun x i h0 h1 => input_block m c t x i h0 h1) j _ ?_ ?_
  · show win0_1.index t 0 * 2048 + 1 * (j 0).val = 2048 * t.val + (j 0).val; rw [e2]; omega
  · show win0_1.index t 1 * 1024 + 1 * (j 1).val = (j 1).val; rw [e3]; omega

/-- An index of the array is in point `t`'s block iff each coordinate is in the block's range on its axis. -/
theorem mem_block (t : Fin cfg0.N) (i : S32768x1024.Idx) :
    i ∈ ((cfg0.win 1).blk t).view.set ↔ ∀ a : Fin 2, win0_1.index t a * S2048x1024.size a ≤ (i a).val
      ∧ (i a).val < win0_1.index t a * S2048x1024.size a + S2048x1024.size a := by
  show i ∈ ((View.whole main_v0).slice (win0_1.rect t)).set ↔ _
  rw [View.set_slice_whole, Rect.mem_set_unit]
  exact Iff.rfl

/-- Every row of the array lies in the block of point `row / 2048`. -/
theorem covered (i : S32768x1024.Idx) :
    ∃ t : Fin cfg0.N, (cfg0.win 1).flush t = true ∧ i ∈ ((cfg0.win 1).blk t).view.set := by
  have hN : cfg0.N = 16 := N_0
  have hi0 : (i 0).val < 32768 := (i 0).isLt
  have hi1 : (i 1).val < 1024 := (i 1).isLt
  let t : Fin cfg0.N := ⟨(i 0).val / 2048, by rw [hN]; omega⟩
  obtain ⟨-, -, e2, e3⟩ := block_index t
  have ht : t.val = (i 0).val / 2048 := rfl
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; rw [e2, ht]; omega
  | ⟨1, _⟩ => show win0_1.index t (1 : Fin 2) * 1024 ≤ (i 1).val ∧ (i 1).val < win0_1.index t (1 : Fin 2) * 1024 + 1024; rw [e3]; omega

/-- THE ARRAY after the run is the normalised argument. -/
theorem final (c : Dev nD) :
    (dats m 0 c).arrAt 1 cfg0.N = normalized (m ((c : Thread nD τ).loc main_arg0)) :=
  (dats m 0 c).arrAt_eq_of_cover 1 (normalized (m ((c : Thread nD τ).loc main_arg0))) (fun t _ => flushed_eq m c t) covered

/-- The run, read: the result array at the normalised argument, the argument unchanged. -/
theorem run : θ_run defs (onTc (τ := τ) (main (F := Ideal))) ⟨m, fun _ => 0, ρ⟩ fun r => ∀ c : Dev nD,
      r.2.mem ((c : Thread nD τ).loc main_v0) = normalized (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.RowValue

end
-- ==== Proof.RefValue.lean ====
/-
  What the idealized reference computes: every row of the argument multiplied by its factor.

  The reference takes each row's norm `n = √(0 + Σ_k x_k²)`, forms `d = if n = 0 then 0 else 1 / (if n = 0 then 1 else n)`
  and multiplies the row by `d`. The sum of squares is not negative, so `d` is the factor `Cert.RowNormalize.scale` of the
  row's squared norm (`select_recip_sqrt_eq_scale`), and the result is `Cert.RowNormalize.normalized` of the argument.
-/
import proofs.«127743_g40415642255439_feedfinal_103_10_alg».proof.Proof.Gen.ReferenceIdeal.Read
import proofs.«127743_g40415642255439_feedfinal_103_10_alg».proof.Proof.RowScale
import Idealize.ShloMosaic.Lib.ValueIdx
import Idealize.ShloMosaic.PureOps.Ideal.Laws

noncomputable section

namespace Cert.ReferenceIdeal.RowValue

open Cert.ReferenceIdeal Cert.ReferenceIdeal.Read Idealize.ShloMosaic Idealize.ShloMosaic.TcCoe
open Idealize.ShloMosaic.ValueIdx Cert.RowNormalize

/-- The host's sum of a row's squares, started from zero, is the row's squared norm. -/
theorem rowSum_eq (x0 : (⟨S32768x1024, .f32⟩ : BufTy).Contents (Elt Ideal)) (j : S32768.Idx) (r : Fin 32768) (hj : j = ix1 r) :
    val_main_call0_v1 (F := Ideal) x0 j = rowSq x0 r := by
  subst hj
  rw [val_main_call0_v1_apply, val_main_call0_cst_apply]
  show Ideal.ofBits .f32 0x00000000#32 + _ = _
  rw [Ideal.ofBits_zero_f32, zero_add]
  unfold rowSq
  refine Finset.sum_congr rfl fun k _ => ?_
  rw [val_main_call0_v0_apply]
  have e : idx_main_call0_v1 (ix1 r) k = ix2 r k :=
    funext fun a => Fin.ext (by match a with | ⟨0, _⟩ => rfl | ⟨1, _⟩ => rfl)
  rw [e]
  rfl

/-- THE REFERENCE'S RESULT is the normalised argument. -/
theorem result_eq (x0 : (⟨S32768x1024, .f32⟩ : BufTy).Contents (Elt Ideal)) :
    val_main_v11 (F := Ideal) x0 = normalized x0 := by
  funext i
  have ej : idx_main_v9 (idx_main_v10 i) = ix1 (i 0) :=
    funext fun a => Fin.ext (by match a with | ⟨0, _⟩ => rfl)
  have hS := rowSum_eq x0 (idx_main_v9 (idx_main_v10 i)) (i 0) ej
  simp only [val_main_v11_apply, val_main_v10_apply, val_main_v9_apply, val_main_v8_apply, val_main_v2_apply,
    val_main_v7_apply, val_main_v6_apply, val_main_v5_apply, val_main_v4_apply, val_main_v3_apply, val_main_v1_apply,
    val_main_v0_apply, val_main_call2_v1_apply, val_main_call2_v0_apply, val_main_call1_v1_apply, val_main_call1_v0_apply,
    val_main_cst_apply, val_main_cst_0_apply, val_main_cst_1_apply, val_main_cst_2_apply, val_main_cst_3_apply, hS]
  exact congrArg (fun d => x0 i * d) (select_recip_sqrt_eq_scale (rowSq x0 (i 0)) (rowSq_nonneg x0 (i 0)))

end Cert.ReferenceIdeal.RowValue

end
-- ==== Proof.lean ====
/-
  Row-wise L2 normalisation of a [32768, 1024] array: the kernel against its reference, on the extended reals.

  Both programs multiply every row `x` by a factor of its squared norm `s = Σ_k x_k²`. The kernel's factor is the guarded
  reciprocal square root, `if s = 0 then 0 else rsqrt s`, computed block by block (sixteen blocks of 2048 whole rows); the
  reference's is the guarded reciprocal of the norm, `if √s = 0 then 0 else 1 / (if √s = 0 then 1 else √s)`. A sum of
  squares is not negative, and on `s ≥ 0` the two factors are one function (Proof/RowScale.lean): `√s = 0` exactly at
  `s = 0`, both are `(√s)⁻¹` at a real `s > 0`, and both are `0` at `s = +∞`. So both result arrays are
  `Cert.RowNormalize.normalized` of the argument — the kernel's by Proof/KernelValue.lean (what each grid point writes back,
  and that the blocks tile the array), the reference's by Proof/RefValue.lean (its operations read at an index). The
  argument's finiteness is not used. The idealization rewrote nothing, so the kernel's idealized text is its own.
-/
import proofs.«127743_g40415642255439_feedfinal_103_10_alg».proof.Defs
import proofs.«127743_g40415642255439_feedfinal_103_10_alg».proof.Proof.Gen.Kernel
import proofs.«127743_g40415642255439_feedfinal_103_10_alg».proof.Proof.Gen.Kernel.Frame
import proofs.«127743_g40415642255439_feedfinal_103_10_alg».proof.Proof.Gen.KernelIdeal
import proofs.«127743_g40415642255439_feedfinal_103_10_alg».proof.Proof.Gen.KernelIdeal.Frame
import proofs.«127743_g40415642255439_feedfinal_103_10_alg».proof.Proof.Gen.KernelIdeal.Value
import proofs.«127743_g40415642255439_feedfinal_103_10_alg».proof.Proof.Gen.ReferenceIdeal
import proofs.«127743_g40415642255439_feedfinal_103_10_alg».proof.Proof.Gen.ReferenceIdeal.Run
import proofs.«127743_g40415642255439_feedfinal_103_10_alg».proof.Proof.Gen.ReferenceIdeal.Read
import proofs.«127743_g40415642255439_feedfinal_103_10_alg».proof.Proof.Gen.Pre_finite_inputs
import proofs.«127743_g40415642255439_feedfinal_103_10_alg».proof.Proof.RowScale
import proofs.«127743_g40415642255439_feedfinal_103_10_alg».proof.Proof.KernelValue
import proofs.«127743_g40415642255439_feedfinal_103_10_alg».proof.Proof.RefValue
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- From memories that agree on the argument both programs end with the normalised argument in their result arrays. -/
theorem algebraic : Cert.algebraic_KernelIdeal_ReferenceIdeal := by
  intro m ρ m' ρ' _ hagree
  refine ⟨fun c => Cert.RowNormalize.normalized (m ((c.tc : Thread Cert.KernelIdeal.nD Cert.KernelIdeal.τ).loc Cert.KernelIdeal.main_arg0)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RowValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
